-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x32 : Shape := ⟨4, ![4, 64, 64, 32]⟩
abbrev S3x3x32x32 : Shape := ⟨4, ![3, 3, 32, 32]⟩
abbrev S_ : Shape := ⟨0, ![]⟩

class Facts : Prop where
  bcast_S_S4x64x64x32 : S_.BroadcastsInDim S4x64x64x32 (![] : Fin 0 → Fin S4x64x64x32.rank)
  reducesTo_S4x64x64x32_S_d0_1_2_3 : S4x64x64x32.ReducesTo [0, 1, 2, 3] S_
  h_S_ : 0 < S_.numel
  bcast_S_S3x3x32x32 : S_.BroadcastsInDim S3x3x32x32 (![] : Fin 0 → Fin S3x3x32x32.rank)
  reducesTo_S3x3x32x32_S_d0_1_2_3 : S3x3x32x32.ReducesTo [0, 1, 2, 3] S_

variable [Facts]

def fn {F : FTy → Type} [FloatOps F] (main_arg0 : FVec F S4x64x64x32 .f32) (main_arg1 : FVec F S3x3x32x32 .f32) : IVec S_ 1 :=
  let main_v0 : FVec F S4x64x64x32 .f32 := Host.absf main_arg0
  let main_cst : FVec F S_ .f32 := constant S_ .f32 0x7F800000#32
  let main_v1 : FVec F S4x64x64x32 .f32 := broadcastInDim S4x64x64x32 ![] bcast_S_S4x64x64x32 main_cst
  let main_v2 : IVec S4x64x64x32 1 := cmpf .olt main_v0 main_v1
  let main_c : IVec S_ 1 := constantI S_ 1 1#1
  let main_v3 : IVec S_ 1 := (fun x v => Host.reduce IntOp.andi x v reducesTo_S4x64x64x32_S_d0_1_2_3 h_S_) main_v2 main_c
  let main_v4 : FVec F S3x3x32x32 .f32 := Host.absf main_arg1
  let main_cst_0 : FVec F S_ .f32 := constant S_ .f32 0x7F800000#32
  let main_v5 : FVec F S3x3x32x32 .f32 := broadcastInDim S3x3x32x32 ![] bcast_S_S3x3x32x32 main_cst_0
  let main_v6 : IVec S3x3x32x32 1 := cmpf .olt main_v4 main_v5
  let main_c_1 : IVec S_ 1 := constantI S_ 1 1#1
  let main_v7 : IVec S_ 1 := (fun x v => Host.reduce IntOp.andi x v reducesTo_S3x3x32x32_S_d0_1_2_3 h_S_) main_v6 main_c_1
  let main_v8 : IVec S_ 1 := andi main_v3 main_v7
  main_v8
-- ==== Kernel.lean ====
abbrev S4x64x64x32 : Shape := ⟨4, ![4, 64, 64, 32]⟩
abbrev S3x3x32x32 : Shape := ⟨4, ![3, 3, 32, 32]⟩
abbrev S_ : Shape := ⟨0, ![]⟩
abbrev S4x66x66x32 : Shape := ⟨4, ![4, 66, 66, 32]⟩
abbrev S4x64x64x1x32 : Shape := ⟨5, ![4, 64, 64, 1, 32]⟩
abbrev S4x64x64x9x32 : Shape := ⟨5, ![4, 64, 64, 9, 32]⟩
abbrev S16384x288 : Shape := ⟨2, ![16384, 288]⟩
abbrev S288x32 : Shape := ⟨2, ![288, 32]⟩
abbrev S32x288 : Shape := ⟨2, ![32, 288]⟩
abbrev S16384x32 : Shape := ⟨2, ![16384, 32]⟩
abbrev S512x288 : Shape := ⟨2, ![512, 288]⟩
abbrev S512x32 : Shape := ⟨2, ![512, 32]⟩
abbrev S1x288 : Shape := ⟨2, ![1, 288]⟩
abbrev S512 : Shape := ⟨1, ![512]⟩
abbrev S512x1 : Shape := ⟨2, ![512, 1]⟩

abbrev nBuf : Space → Nat
  | .hbm => 29
  | .vmem => 5
  | .smem => 0
  | _ => 0

abbrev bufTy : (tb : Table) → Fin (tcTables nBuf tb) → BufTy
  | .hbm, ⟨0, _⟩ => ⟨S4x64x64x32, .f32⟩
  | .hbm, ⟨1, _⟩ => ⟨S3x3x32x32, .f32⟩
  | .hbm, ⟨2, _⟩ => ⟨S_, .i32⟩
  | .hbm, ⟨3, _⟩ => ⟨S_, .f32⟩
  | .hbm, ⟨4, _⟩ => ⟨S4x66x66x32, .f32⟩
  | .hbm, ⟨5, _⟩ => ⟨S4x64x64x32, .f32⟩
  | .hbm, ⟨6, _⟩ => ⟨S4x64x64x32, .f32⟩
  | .hbm, ⟨7, _⟩ => ⟨S4x64x64x32, .f32⟩
  | .hbm, ⟨8, _⟩ => ⟨S4x64x64x32, .f32⟩
  | .hbm, ⟨9, _⟩ => ⟨S4x64x64x32, .f32⟩
  | .hbm, ⟨10, _⟩ => ⟨S4x64x64x32, .f32⟩
  | .hbm, ⟨11, _⟩ => ⟨S4x64x64x32, .f32⟩
  | .hbm, ⟨12, _⟩ => ⟨S4x64x64x32, .f32⟩
  | .hbm, ⟨13, _⟩ => ⟨S4x64x64x32, .f32⟩
  | .hbm, ⟨14, _⟩ => ⟨S4x64x64x1x32, .f32⟩
  | .hbm, ⟨15, _⟩ => ⟨S4x64x64x1x32, .f32⟩
  | .hbm, ⟨16, _⟩ => ⟨S4x64x64x1x32, .f32⟩
  | .hbm, ⟨17, _⟩ => ⟨S4x64x64x1x32, .f32⟩
  | .hbm, ⟨18, _⟩ => ⟨S4x64x64x1x32, .f32⟩
  | .hbm, ⟨19, _⟩ => ⟨S4x64x64x1x32, .f32⟩
  | .hbm, ⟨20, _⟩ => ⟨S4x64x64x1x32, .f32⟩
  | .hbm, ⟨21, _⟩ => ⟨S4x64x64x1x32, .f32⟩
  | .hbm, ⟨22, _⟩ => ⟨S4x64x64x1x32, .f32⟩
  | .hbm, ⟨23, _⟩ => ⟨S4x64x64x9x32, .f32⟩
  | .hbm, ⟨24, _⟩ => ⟨S16384x288, .f32⟩
  | .hbm, ⟨25, _⟩ => ⟨S288x32, .f32⟩
  | .hbm, ⟨26, _⟩ => ⟨S32x288, .f32⟩
  | .hbm, ⟨27, _⟩ => ⟨S16384x32, .f32⟩
  | .hbm, ⟨28, _⟩ => ⟨S4x64x64x32, .f32⟩
  | .local _ .vmem, ⟨0, _⟩ => ⟨S512x288, .f32⟩
  | .local _ .vmem, ⟨1, _⟩ => ⟨S512x288, .f32⟩
  | .local _ .vmem, ⟨2, _⟩ => ⟨S32x288, .f32⟩
  | .local _ .vmem, ⟨3, _⟩ => ⟨S512x32, .f32⟩
  | .local _ .vmem, ⟨4, _⟩ => ⟨S512x32, .f32⟩
  | _, _ => ⟨S4x64x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x64x64x32_S4x66x66x32_000_110_110_000 : S4x64x64x32.Pads (![0, 1, 1, 0] : Fin 4 → Nat) ![0, 1, 1, 0] ![0, 0, 0, 0] S4x66x66x32
  h_S_ : 0 < S_.numel
  slices_S4x66x66x32_S4x64x64x32_0_0_0_0 : S4x66x66x32.Slices ![0, 0, 0, 0] S4x64x64x32
  slices_S4x66x66x32_S4x64x64x32_0_0_1_0 : S4x66x66x32.Slices ![0, 0, 1, 0] S4x64x64x32
  slices_S4x66x66x32_S4x64x64x32_0_0_2_0 : S4x66x66x32.Slices ![0, 0, 2, 0] S4x64x64x32
  slices_S4x66x66x32_S4x64x64x32_0_1_0_0 : S4x66x66x32.Slices ![0, 1, 0, 0] S4x64x64x32
  slices_S4x66x66x32_S4x64x64x32_0_1_1_0 : S4x66x66x32.Slices ![0, 1, 1, 0] S4x64x64x32
  slices_S4x66x66x32_S4x64x64x32_0_1_2_0 : S4x66x66x32.Slices ![0, 1, 2, 0] S4x64x64x32
  slices_S4x66x66x32_S4x64x64x32_0_2_0_0 : S4x66x66x32.Slices ![0, 2, 0, 0] S4x64x64x32
  slices_S4x66x66x32_S4x64x64x32_0_2_1_0 : S4x66x66x32.Slices ![0, 2, 1, 0] S4x64x64x32
  slices_S4x66x66x32_S4x64x64x32_0_2_2_0 : S4x66x66x32.Slices ![0, 2, 2, 0] S4x64x64x32
  bcast_S4x64x64x32_S4x64x64x1x32_0_1_2_4 : S4x64x64x32.BroadcastsInDim S4x64x64x1x32 (![0, 1, 2, 4] : Fin 4 → Fin S4x64x64x1x32.rank)
  concatenates_S4x64x64x1x32_S4x64x64x1x32_S4x64x64x1x32_S4x64x64x1x32_S4x64x64x1x32_S4x64x64x1x32_S4x64x64x1x32_S4x64x64x1x32_S4x64x64x1x32_S4x64x64x9x32_d3 : Shape.Concatenates [S4x64x64x1x32, S4x64x64x1x32, S4x64x64x1x32, S4x64x64x1x32, S4x64x64x1x32, S4x64x64x1x32, S4x64x64x1x32, S4x64x64x1x32, S4x64x64x1x32] S4x64x64x9x32 3
  shapeCasts_S4x64x64x9x32_S16384x288 : S4x64x64x9x32.ShapeCasts S16384x288
  shapeCasts_S3x3x32x32_S288x32 : S3x3x32x32.ShapeCasts S288x32
  transposes_S288x32_S32x288_1_0 : S288x32.Transposes [1, 0] S32x288
  inb_S512x288_S512x288_0_0 : ∀ a, (![0, 0] : Fin 2 → Nat) a + S512x288.size a ≤ S512x288.size a
  h_S512x288 : 0 < S512x288.numel
  shapeCasts_S512x288_S512x288 : S512x288.ShapeCasts S512x288
  inb_S32x288_S32x288_0_0 : ∀ a, (![0, 0] : Fin 2 → Nat) a + S32x288.size a ≤ S32x288.size a
  h_S32x288 : 0 < S32x288.numel
  shapeCasts_S32x288_S32x288 : S32x288.ShapeCasts S32x288
  slices_S32x288_o0_0_S1x288 : S32x288.Slices ![0, 0] S1x288
  broadcasts_S1x288_S512x288 : S1x288.Broadcasts S512x288
  reduces_S512x288_S512 : S512x288.Reduces [1] S512
  shapeCasts_S512_S512x1 : S512.ShapeCasts S512x1
  inb_S512x32_S512x1_0_0 : ∀ a, (![0, 0] : Fin 2 → Nat) a + S512x1.size a ≤ S512x32.size a
  h_S512x1 : 0 < S512x1.numel
  slices_S32x288_o1_0_S1x288 : S32x288.Slices ![1, 0] S1x288
  inb_S512x32_S512x1_0_1 : ∀ a, (![0, 1] : Fin 2 → Nat) a + S512x1.size a ≤ S512x32.size a
  slices_S32x288_o2_0_S1x288 : S32x288.Slices ![2, 0] S1x288
  inb_S512x32_S512x1_0_2 : ∀ a, (![0, 2] : Fin 2 → Nat) a + S512x1.size a ≤ S512x32.size a
  slices_S32x288_o3_0_S1x288 : S32x288.Slices ![3, 0] S1x288
  inb_S512x32_S512x1_0_3 : ∀ a, (![0, 3] : Fin 2 → Nat) a + S512x1.size a ≤ S512x32.size a
  slices_S32x288_o4_0_S1x288 : S32x288.Slices ![4, 0] S1x288
  inb_S512x32_S512x1_0_4 : ∀ a, (![0, 4] : Fin 2 → Nat) a + S512x1.size a ≤ S512x32.size a
  slices_S32x288_o5_0_S1x288 : S32x288.Slices ![5, 0] S1x288
  inb_S512x32_S512x1_0_5 : ∀ a, (![0, 5] : Fin 2 → Nat) a + S512x1.size a ≤ S512x32.size a
  slices_S32x288_o6_0_S1x288 : S32x288.Slices ![6, 0] S1x288
  inb_S512x32_S512x1_0_6 : ∀ a, (![0, 6] : Fin 2 → Nat) a + S512x1.size a ≤ S512x32.size a
  slices_S32x288_o7_0_S1x288 : S32x288.Slices ![7, 0] S1x288
  inb_S512x32_S512x1_0_7 : ∀ a, (![0, 7] : Fin 2 → Nat) a + S512x1.size a ≤ S512x32.size a
  slices_S32x288_o8_0_S1x288 : S32x288.Slices ![8, 0] S1x288
  inb_S512x32_S512x1_0_8 : ∀ a, (![0, 8] : Fin 2 → Nat) a + S512x1.size a ≤ S512x32.size a
  slices_S32x288_o9_0_S1x288 : S32x288.Slices ![9, 0] S1x288
  inb_S512x32_S512x1_0_9 : ∀ a, (![0, 9] : Fin 2 → Nat) a + S512x1.size a ≤ S512x32.size a
  slices_S32x288_o10_0_S1x288 : S32x288.Slices ![10, 0] S1x288
  inb_S512x32_S512x1_0_10 : ∀ a, (![0, 10] : Fin 2 → Nat) a + S512x1.size a ≤ S512x32.size a
  slices_S32x288_o11_0_S1x288 : S32x288.Slices ![11, 0] S1x288
  inb_S512x32_S512x1_0_11 : ∀ a, (![0, 11] : Fin 2 → Nat) a + S512x1.size a ≤ S512x32.size a
  slices_S32x288_o12_0_S1x288 : S32x288.Slices ![12, 0] S1x288
  inb_S512x32_S512x1_0_12 : ∀ a, (![0, 12] : Fin 2 → Nat) a + S512x1.size a ≤ S512x32.size a
  slices_S32x288_o13_0_S1x288 : S32x288.Slices ![13, 0] S1x288
  inb_S512x32_S512x1_0_13 : ∀ a, (![0, 13] : Fin 2 → Nat) a + S512x1.size a ≤ S512x32.size a
  slices_S32x288_o14_0_S1x288 : S32x288.Slices ![14, 0] S1x288
  inb_S512x32_S512x1_0_14 : ∀ a, (![0, 14] : Fin 2 → Nat) a + S512x1.size a ≤ S512x32.size a
  slices_S32x288_o15_0_S1x288 : S32x288.Slices ![15, 0] S1x288
  inb_S512x32_S512x1_0_15 : ∀ a, (![0, 15] : Fin 2 → Nat) a + S512x1.size a ≤ S512x32.size a
  slices_S32x288_o16_0_S1x288 : S32x288.Slices ![16, 0] S1x288
  inb_S512x32_S512x1_0_16 : ∀ a, (![0, 16] : Fin 2 → Nat) a + S512x1.size a ≤ S512x32.size a
  slices_S32x288_o17_0_S1x288 : S32x288.Slices ![17, 0] S1x288
  inb_S512x32_S512x1_0_17 : ∀ a, (![0, 17] : Fin 2 → Nat) a + S512x1.size a ≤ S512x32.size a
  slices_S32x288_o18_0_S1x288 : S32x288.Slices ![18, 0] S1x288
  inb_S512x32_S512x1_0_18 : ∀ a, (![0, 18] : Fin 2 → Nat) a + S512x1.size a ≤ S512x32.size a
  slices_S32x288_o19_0_S1x288 : S32x288.Slices ![19, 0] S1x288
  inb_S512x32_S512x1_0_19 : ∀ a, (![0, 19] : Fin 2 → Nat) a + S512x1.size a ≤ S512x32.size a
  slices_S32x288_o20_0_S1x288 : S32x288.Slices ![20, 0] S1x288
  inb_S512x32_S512x1_0_20 : ∀ a, (![0, 20] : Fin 2 → Nat) a + S512x1.size a ≤ S512x32.size a
  slices_S32x288_o21_0_S1x288 : S32x288.Slices ![21, 0] S1x288
  inb_S512x32_S512x1_0_21 : ∀ a, (![0, 21] : Fin 2 → Nat) a + S512x1.size a ≤ S512x32.size a
  slices_S32x288_o22_0_S1x288 : S32x288.Slices ![22, 0] S1x288
  inb_S512x32_S512x1_0_22 : ∀ a, (![0, 22] : Fin 2 → Nat) a + S512x1.size a ≤ S512x32.size a
  slices_S32x288_o23_0_S1x288 : S32x288.Slices ![23, 0] S1x288
  inb_S512x32_S512x1_0_23 : ∀ a, (![0, 23] : Fin 2 → Nat) a + S512x1.size a ≤ S512x32.size a
  slices_S32x288_o24_0_S1x288 : S32x288.Slices ![24, 0] S1x288
  inb_S512x32_S512x1_0_24 : ∀ a, (![0, 24] : Fin 2 → Nat) a + S512x1.size a ≤ S512x32.size a
  slices_S32x288_o25_0_S1x288 : S32x288.Slices ![25, 0] S1x288
  inb_S512x32_S512x1_0_25 : ∀ a, (![0, 25] : Fin 2 → Nat) a + S512x1.size a ≤ S512x32.size a
  slices_S32x288_o26_0_S1x288 : S32x288.Slices ![26, 0] S1x288
  inb_S512x32_S512x1_0_26 : ∀ a, (![0, 26] : Fin 2 → Nat) a + S512x1.size a ≤ S512x32.size a
  slices_S32x288_o27_0_S1x288 : S32x288.Slices ![27, 0] S1x288
  inb_S512x32_S512x1_0_27 : ∀ a, (![0, 27] : Fin 2 → Nat) a + S512x1.size a ≤ S512x32.size a
  slices_S32x288_o28_0_S1x288 : S32x288.Slices ![28, 0] S1x288
  inb_S512x32_S512x1_0_28 : ∀ a, (![0, 28] : Fin 2 → Nat) a + S512x1.size a ≤ S512x32.size a
  slices_S32x288_o29_0_S1x288 : S32x288.Slices ![29, 0] S1x288
  inb_S512x32_S512x1_0_29 : ∀ a, (![0, 29] : Fin 2 → Nat) a + S512x1.size a ≤ S512x32.size a
  slices_S32x288_o30_0_S1x288 : S32x288.Slices ![30, 0] S1x288
  inb_S512x32_S512x1_0_30 : ∀ a, (![0, 30] : Fin 2 → Nat) a + S512x1.size a ≤ S512x32.size a
  slices_S32x288_o31_0_S1x288 : S32x288.Slices ![31, 0] S1x288
  inb_S512x32_S512x1_0_31 : ∀ a, (![0, 31] : Fin 2 → Nat) a + S512x1.size a ≤ S512x32.size a
  shapeCasts_S16384x32_S4x64x64x32 : S16384x32.ShapeCasts S4x64x64x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x288.size a ≤ S16384x288.size a
  hwx0_0 : ∀ i : grid0.Coords, EltTy.bits .f32 = 32 ∨ (Rect.block (s := S16384x288) S512x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x288.size a ≤ S32x288.size a
  hwx0_1 : ∀ i : grid0.Coords, EltTy.bits .f32 = 32 ∨ (Rect.block (s := S32x288) S32x288.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S16384x32.size a
  hwx0_2 : ∀ i : grid0.Coords, EltTy.bits .f32 = 32 ∨ (Rect.block (s := S16384x32) S512x32.size (cc0_transform_2 i) (hinb0_2 i)).WholeWords (EltTy.packing .f32)

variable [Facts₀]

abbrev win0_0 : Pipeline.Window sig grid0 :=
  Pipeline.Window.ofSpec (Memref.whole main_v20) S512x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S32x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x64x32 : Shape := ⟨4, ![4, 64, 64, 32]⟩
abbrev S3x3x32x32 : Shape := ⟨4, ![3, 3, 32, 32]⟩
abbrev S_ : Shape := ⟨0, ![]⟩
abbrev S4x66x66x32 : Shape := ⟨4, ![4, 66, 66, 32]⟩
abbrev S4x64x64x1x32 : Shape := ⟨5, ![4, 64, 64, 1, 32]⟩
abbrev S4x64x64x9x32 : Shape := ⟨5, ![4, 64, 64, 9, 32]⟩
abbrev S16384x288 : Shape := ⟨2, ![16384, 288]⟩
abbrev S288x32 : Shape := ⟨2, ![288, 32]⟩
abbrev S16384x288x1 : Shape := ⟨3, ![16384, 288, 1]⟩
abbrev S1x288x32 : Shape := ⟨3, ![1, 288, 32]⟩
abbrev S16384x288x32 : Shape := ⟨3, ![16384, 288, 32]⟩
abbrev S16384x32 : Shape := ⟨2, ![16384, 32]⟩

abbrev nBuf : Space → Nat
  | .hbm => 36
  | .vmem => 0
  | .smem => 0
  | _ => 0

abbrev bufTy : (tb : Table) → Fin (tcTables nBuf tb) → BufTy
  | .hbm, ⟨0, _⟩ => ⟨S4x64x64x32, .f32⟩
  | .hbm, ⟨1, _⟩ => ⟨S3x3x32x32, .f32⟩
  | .hbm, ⟨2, _⟩ => ⟨S_, .i32⟩
  | .hbm, ⟨3, _⟩ => ⟨S_, .f32⟩
  | .hbm, ⟨4, _⟩ => ⟨S4x66x66x32, .f32⟩
  | .hbm, ⟨5, _⟩ => ⟨S4x64x64x32, .f32⟩
  | .hbm, ⟨6, _⟩ => ⟨S4x64x64x32, .f32⟩
  | .hbm, ⟨7, _⟩ => ⟨S4x64x64x32, .f32⟩
  | .hbm, ⟨8, _⟩ => ⟨S4x64x64x32, .f32⟩
  | .hbm, ⟨9, _⟩ => ⟨S4x64x64x32, .f32⟩
  | .hbm, ⟨10, _⟩ => ⟨S4x64x64x32, .f32⟩
  | .hbm, ⟨11, _⟩ => ⟨S4x64x64x32, .f32⟩
  | .hbm, ⟨12, _⟩ => ⟨S4x64x64x32, .f32⟩
  | .hbm, ⟨13, _⟩ => ⟨S4x64x64x32, .f32⟩
  | .hbm, ⟨14, _⟩ => ⟨S4x64x64x1x32, .f32⟩
  | .hbm, ⟨15, _⟩ => ⟨S4x64x64x1x32, .f32⟩
  | .hbm, ⟨16, _⟩ => ⟨S4x64x64x1x32, .f32⟩
  | .hbm, ⟨17, _⟩ => ⟨S4x64x64x1x32, .f32⟩
  | .hbm, ⟨18, _⟩ => ⟨S4x64x64x1x32, .f32⟩
  | .hbm, ⟨19, _⟩ => ⟨S4x64x64x1x32, .f32⟩
  | .hbm, ⟨20, _⟩ => ⟨S4x64x64x1x32, .f32⟩
  | .hbm, ⟨21, _⟩ => ⟨S4x64x64x1x32, .f32⟩
  | .hbm, ⟨22, _⟩ => ⟨S4x64x64x1x32, .f32⟩
  | .hbm, ⟨23, _⟩ => ⟨S4x64x64x9x32, .f32⟩
  | .hbm, ⟨24, _⟩ => ⟨S16384x288, .f32⟩
  | .hbm, ⟨25, _⟩ => ⟨S288x32, .f32⟩
  | .hbm, ⟨26, _⟩ => ⟨S16384x288x1, .f32⟩
  | .hbm, ⟨27, _⟩ => ⟨S1x288x32, .f32⟩
  | .hbm, ⟨28, _⟩ => ⟨S16384x288x32, .f32⟩
  | .hbm, ⟨29, _⟩ => ⟨S16384x288x32, .f32⟩
  | .hbm, ⟨30, _⟩ => ⟨S16384x288x32, .f32⟩
  | .hbm, ⟨31, _⟩ => ⟨S16384x288x32, .f32⟩
  | .hbm, ⟨32, _⟩ => ⟨S_, .f32⟩
  | .hbm, ⟨33, _⟩ => ⟨S16384x32, .f32⟩
  | .hbm, ⟨34, _⟩ => ⟨S16384x32, .f32⟩
  | .hbm, ⟨35, _⟩ => ⟨S4x64x64x32, .f32⟩
  | _, _ => ⟨S4x64x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S4x64x64x32_S4x66x66x32_000_110_110_000 : S4x64x64x32.Pads (![0, 1, 1, 0] : Fin 4 → Nat) ![0, 1, 1, 0] ![0, 0, 0, 0] S4x66x66x32
  h_S_ : 0 < S_.numel
  slices_S4x66x66x32_S4x64x64x32_0_0_0_0 : S4x66x66x32.Slices ![0, 0, 0, 0] S4x64x64x32
  slices_S4x66x66x32_S4x64x64x32_0_0_1_0 : S4x66x66x32.Slices ![0, 0, 1, 0] S4x64x64x32
  slices_S4x66x66x32_S4x64x64x32_0_0_2_0 : S4x66x66x32.Slices ![0, 0, 2, 0] S4x64x64x32
  slices_S4x66x66x32_S4x64x64x32_0_1_0_0 : S4x66x66x32.Slices ![0, 1, 0, 0] S4x64x64x32
  slices_S4x66x66x32_S4x64x64x32_0_1_1_0 : S4x66x66x32.Slices ![0, 1, 1, 0] S4x64x64x32
  slices_S4x66x66x32_S4x64x64x32_0_1_2_0 : S4x66x66x32.Slices ![0, 1, 2, 0] S4x64x64x32
  slices_S4x66x66x32_S4x64x64x32_0_2_0_0 : S4x66x66x32.Slices ![0, 2, 0, 0] S4x64x64x32
  slices_S4x66x66x32_S4x64x64x32_0_2_1_0 : S4x66x66x32.Slices ![0, 2, 1, 0] S4x64x64x32
  slices_S4x66x66x32_S4x64x64x32_0_2_2_0 : S4x66x66x32.Slices ![0, 2, 2, 0] S4x64x64x32
  bcast_S4x64x64x32_S4x64x64x1x32_0_1_2_4 : S4x64x64x32.BroadcastsInDim S4x64x64x1x32 (![0, 1, 2, 4] : Fin 4 → Fin S4x64x64x1x32.rank)
  concatenates_S4x64x64x1x32_S4x64x64x1x32_S4x64x64x1x32_S4x64x64x1x32_S4x64x64x1x32_S4x64x64x1x32_S4x64x64x1x32_S4x64x64x1x32_S4x64x64x1x32_S4x64x64x9x32_d3 : Shape.Concatenates [S4x64x64x1x32, S4x64x64x1x32, S4x64x64x1x32, S4x64x64x1x32, S4x64x64x1x32, S4x64x64x1x32, S4x64x64x1x32, S4x64x64x1x32, S4x64x64x1x32] S4x64x64x9x32 3
  shapeCasts_S4x64x64x9x32_S16384x288 : S4x64x64x9x32.ShapeCasts S16384x288
  shapeCasts_S3x3x32x32_S288x32 : S3x3x32x32.ShapeCasts S288x32
  bcast_S16384x288_S16384x288x1_0_1 : S16384x288.BroadcastsInDim S16384x288x1 (![0, 1] : Fin 2 → Fin S16384x288x1.rank)
  bcast_S288x32_S1x288x32_1_2 : S288x32.BroadcastsInDim S1x288x32 (![1, 2] : Fin 2 → Fin S1x288x32.rank)
  bcast_S16384x288x1_S16384x288x32_0_1_2 : S16384x288x1.BroadcastsInDim S16384x288x32 (![0, 1, 2] : Fin 3 → Fin S16384x288x32.rank)
  bcast_S1x288x32_S16384x288x32_0_1_2 : S1x288x32.BroadcastsInDim S16384x288x32 (![0, 1, 2] : Fin 3 → Fin S16384x288x32.rank)
  reducesTo_S16384x288x32_S16384x32_d1 : S16384x288x32.ReducesTo [1] S16384x32
  shapeCasts_S16384x32_S4x64x64x32 : S16384x32.ShapeCasts S4x64x64x32

variable [Facts₀]

class Facts : Prop extends Facts₀ where

variable [Facts]
-- ==== Proof.WordAround.lean ====
/-
  @main of the program around its one region, and what the region finds.

  @main is three stretches of host operations (a constant; the padding, done by a called function; the nine
  shifted windows, their stacking and flattening to the patch matrix, and the filter matrix flattened and
  transposed), then the region, then one more host operation (the result laid back out over the image).
  None of the host operations writes an argument array, before or after the region, and the one after the
  region writes no array the region stages: so the arguments end as launched, and the result is the last
  operation applied to what the region wrote back.
-/
import proofs.«140434_j1795296330278_2_alg».proof.Proof.Gen.Kernel.Launch
import proofs.«140434_j1795296330278_2_alg».proof.Proof.Gen.Kernel.Skeleton
import proofs.«140434_j1795296330278_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Every buffer of core `c` after the three stretches of host operations that precede the region. -/
abbrev V0 (c : Dev nD) : Valuation τ sig (Elt F) :=
  StableHlo.after (List.flatten [hostOps0, hostOps0_1, hostOps0_2]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operation after it: it reduces to
    the region continued by that last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the three arrays the region stages (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the filter bank. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The operation after the region does not write the image either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the filter bank. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`: rows 512·t … 512·t + 511 of the patch matrix (window 0), the whole
    transposed filter matrix (window 1), rows 512·t … of the result (window 2), read off the arrays the region finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch rows' staging buffer holds the point's block when the body starts, at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The filter matrix's staging buffer holds the whole matrix when the body starts, at every point (it is fetched
    once and the body leaves it in place). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every staged array at what the pipeline wrote back and every other unscoped
    buffer as the last host operation leaves it: the two argument arrays (staged by no window) end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

end Cert.Kernel.Around

end
-- ==== Proof.WordBodyRun.lean ====
/-
  The kernel body at one grid point, run on whole staging buffers.

  The body loads the point's 512 patch rows and the whole transposed filter matrix, and then, for each of the 32
  filters in turn, stores one 512 x 1 column of the output block (it also loads that column first, a value it
  never uses).  Run symbolically, it leaves both input buffers as they were and the output buffer written with 32
  column pieces; the list of pieces is found by the run itself and is the witness of the subtype below.
-/
import proofs.«140434_j1795296330278_2_alg».proof.Proof.WordAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The column pieces the body's 32 stores leave in the output block's buffer (last store first), with the proof
    that on whole buffers — the two inputs at contents `x0`, `x1`, the output at anything — the body runs to the
    continuation holding the inputs as they were and the output's buffer with those pieces written. -/
noncomputable def bodyRun (c : Dev nD) (i : grid0.Coords) (arg1 : Memref sig .tc .vmem S512x288 .f32) (harg1 : arg1.IsWhole)
    (arg2 : Memref sig .tc .vmem S32x288 .f32) (harg2 : arg2.IsWhole) (arg3 : Memref sig .tc .vmem S512x32 .f32) (harg3 : arg3.IsWhole)
    (x0 : Vec F S512x288 .f32) (x1 : Vec F S32x288 .f32) :
    { L : List (View.Piece (Elt F) S512x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__l1_adder_kernel i arg1 harg1 arg2 harg2 arg3 harg3) K } := by
  refine ⟨?_, fun E K => ?run⟩
  case run =>
    simp only [cc0__l1_adder_kernel_eq_skeleton]; unfold cc0__l1_adder_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Around

end
-- ==== Proof.WordFrame.lean ====
/-
  The pipeline's proof data, the body's obligation at every grid point, the run of @main, and the frame.

  The grid has 32 points; point t stages rows 512·t … 512·t + 511 of the patch matrix, the whole transposed filter
  matrix (fetched once), and writes back rows 512·t … of the result.  After the body each input buffer still holds
  its block, and the output buffer holds the 32 columns the body stored: these tile the 512 x 32 block, so the
  buffer's contents do not depend on what it held before.  Every point is the same case: nothing is carried from
  one point to the next.
-/
import proofs.«140434_j1795296330278_2_alg».proof.Proof.WordBodyRun

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output window, through which the block's contents are stated (which one does not matter). -/
abbrev VO : View sig .tc .vmem S512x32 .f32 := (Memref.whole cc0_stg2_0 : Memref sig .tc .vmem S512x32 .f32).view
/-- Each window's current staging buffer at point `t`, spelled as the pipeline passes it to the body, and its wholeness. -/
abbrev ms0 (t : Fin cfg0.N) : Memref sig .tc .vmem S512x288 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x288 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x32 .f32 := win0_2.stage (cfg0.slots t 2)
abbrev hs2 (t : Fin cfg0.N) : (ms2 t).IsWhole := hstage0_2 ((cfg0.slots t 2).cast nbuf0_2)

/-! ## What the body leaves in the output block's buffer -/

/-- The 32 column pieces tile the 512 x 32 block, so they cover it. -/
theorem cover (c : Dev nD) (i : grid0.Coords) (arg1 : Memref sig .tc .vmem S512x288 .f32) (harg1 : arg1.IsWhole)
    (arg2 : Memref sig .tc .vmem S32x288 .f32) (harg2 : arg2.IsWhole) (arg3 : Memref sig .tc .vmem S512x32 .f32) (harg3 : arg3.IsWhole)
    (x0 : Vec F S512x288 .f32) (x1 : Vec F S32x288 .f32) (y : S512x32.Idx) :
    ∃ pc ∈ (bodyRun c i arg1 harg1 arg2 harg2 arg3 harg3 x0 x1).1, y ∈ pc.1.set :=
  View.cover_of_tiledL (bodyRun c i arg1 harg1 arg2 harg2 arg3 harg3 x0 x1).1 S512x1.size (by sl_kernel_rfl) y

/-- What the body leaves in the output block's buffer: its pieces read back (over anything). -/
def outBlk (c : Dev nD) (i : grid0.Coords) (arg1 : Memref sig .tc .vmem S512x288 .f32) (harg1 : arg1.IsWhole)
    (arg2 : Memref sig .tc .vmem S32x288 .f32) (harg2 : arg2.IsWhole) (arg3 : Memref sig .tc .vmem S512x32 .f32) (harg3 : arg3.IsWhole)
    (x0 : Vec F S512x288 .f32) (x1 : Vec F S32x288 .f32) : Vec F S512x32 .f32 :=
  VO.read (Elt F) (VO.writes (Elt F) VO.junk (bodyRun c i arg1 harg1 arg2 harg2 arg3 harg3 x0 x1).1)

/-- The output block after point `t`: the body's pieces over that point's two input blocks. -/
def outAt (c : Dev nD) (t : Fin cfg0.N) : Vec F S512x32 .f32 :=
  outBlk c (grid0.coords t) (ms0 t) (hs0 t) (ms1 t) (hs1 t) (ms2 t) (hs2 t) (iblk m c 0 t) (iblk m c 1 t)

/-! ## The pipeline's proof data -/

/-- On core `c`: the arrays as the region finds them; after the body at point `t` each input's buffer at its block
    and the output's at `outAt`; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

/-- Each input's current staging buffer holds its block when the body starts, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point: the inputs' buffers hold their blocks, so the body's run applies; the output's buffer is
    handed over at whatever it held and comes back covered by the 32 columns; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outAt outBlk
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each staged array at what the pipeline wrote back and every other unscoped buffer as the last host operation
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, nothing faulting, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Around

end
-- ==== Proof.IdealAround.lean ====
/-
  @main of the program around its one region, and what the region finds.

  @main is three stretches of host operations (a constant; the padding, done by a called function; the nine
  shifted windows, their stacking and flattening to the patch matrix, and the filter matrix flattened and
  transposed), then the region, then one more host operation (the result laid back out over the image).
  None of the host operations writes an argument array, before or after the region, and the one after the
  region writes no array the region stages: so the arguments end as launched, and the result is the last
  operation applied to what the region wrote back.
-/
import proofs.«140434_j1795296330278_2_alg».proof.Proof.Gen.KernelIdeal.Launch
import proofs.«140434_j1795296330278_2_alg».proof.Proof.Gen.KernelIdeal.Skeleton
import proofs.«140434_j1795296330278_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region finds -/

/-- Every buffer of core `c` after the three stretches of host operations that precede the region. -/
abbrev V0 (c : Dev nD) : Valuation τ sig (Elt F) :=
  StableHlo.after (List.flatten [hostOps0, hostOps0_1, hostOps0_2]) (fun b => m (c, b))
/-- The same, read at a reference of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operation after it: it reduces to
    the region continued by that last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The operation after the region touches only unscoped buffers of the core. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the three arrays the region stages (it writes the final result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes the image: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))
/-- Nor the filter bank. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- The operation after the region does not write the image either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- Nor the filter bank. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`: rows 512·t … 512·t + 511 of the patch matrix (window 0), the whole
    transposed filter matrix (window 1), rows 512·t … of the result (window 2), read off the arrays the region finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The patch rows' staging buffer holds the point's block when the body starts, at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The filter matrix's staging buffer holds the whole matrix when the body starts, at every point (it is fetched
    once and the body leaves it in place). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run whose final state has every staged array at what the pipeline wrote back and every other unscoped
    buffer as the last host operation leaves it: the two argument arrays (staged by no window) end as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c)⟩) h

end Cert.KernelIdeal.Around

end
-- ==== Proof.IdealBodyRun.lean ====
/-
  The kernel body at one grid point, run on whole staging buffers.

  The body loads the point's 512 patch rows and the whole transposed filter matrix, and then, for each of the 32
  filters in turn, stores one 512 x 1 column of the output block (it also loads that column first, a value it
  never uses).  Run symbolically, it leaves both input buffers as they were and the output buffer written with 32
  column pieces; the list of pieces is found by the run itself and is the witness of the subtype below.
-/
import proofs.«140434_j1795296330278_2_alg».proof.Proof.IdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The column pieces the body's 32 stores leave in the output block's buffer (last store first), with the proof
    that on whole buffers — the two inputs at contents `x0`, `x1`, the output at anything — the body runs to the
    continuation holding the inputs as they were and the output's buffer with those pieces written. -/
noncomputable def bodyRun (c : Dev nD) (i : grid0.Coords) (arg1 : Memref sig .tc .vmem S512x288 .f32) (harg1 : arg1.IsWhole)
    (arg2 : Memref sig .tc .vmem S32x288 .f32) (harg2 : arg2.IsWhole) (arg3 : Memref sig .tc .vmem S512x32 .f32) (harg3 : arg3.IsWhole)
    (x0 : Vec F S512x288 .f32) (x1 : Vec F S32x288 .f32) :
    { L : List (View.Piece (Elt F) S512x32 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__l1_adder_kernel i arg1 harg1 arg2 harg2 arg3 harg3) K } := by
  refine ⟨?_, fun E K => ?run⟩
  case run =>
    simp only [cc0__l1_adder_kernel_eq_skeleton]; unfold cc0__l1_adder_kernel_skel
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Around

end
-- ==== Proof.IdealFrame.lean ====
/-
  The pipeline's proof data, the body's obligation at every grid point, the run of @main, and the frame.

  The grid has 32 points; point t stages rows 512·t … 512·t + 511 of the patch matrix, the whole transposed filter
  matrix (fetched once), and writes back rows 512·t … of the result.  After the body each input buffer still holds
  its block, and the output buffer holds the 32 columns the body stored: these tile the 512 x 32 block, so the
  buffer's contents do not depend on what it held before.  Every point is the same case: nothing is carried from
  one point to the next.
-/
import proofs.«140434_j1795296330278_2_alg».proof.Proof.IdealBodyRun

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

/-- One staging buffer of the output window, through which the block's contents are stated (which one does not matter). -/
abbrev VO : View sig .tc .vmem S512x32 .f32 := (Memref.whole cc0_stg2_0 : Memref sig .tc .vmem S512x32 .f32).view
/-- Each window's current staging buffer at point `t`, spelled as the pipeline passes it to the body, and its wholeness. -/
abbrev ms0 (t : Fin cfg0.N) : Memref sig .tc .vmem S512x288 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S32x288 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x32 .f32 := win0_2.stage (cfg0.slots t 2)
abbrev hs2 (t : Fin cfg0.N) : (ms2 t).IsWhole := hstage0_2 ((cfg0.slots t 2).cast nbuf0_2)

/-! ## What the body leaves in the output block's buffer -/

/-- The 32 column pieces tile the 512 x 32 block, so they cover it. -/
theorem cover (c : Dev nD) (i : grid0.Coords) (arg1 : Memref sig .tc .vmem S512x288 .f32) (harg1 : arg1.IsWhole)
    (arg2 : Memref sig .tc .vmem S32x288 .f32) (harg2 : arg2.IsWhole) (arg3 : Memref sig .tc .vmem S512x32 .f32) (harg3 : arg3.IsWhole)
    (x0 : Vec F S512x288 .f32) (x1 : Vec F S32x288 .f32) (y : S512x32.Idx) :
    ∃ pc ∈ (bodyRun c i arg1 harg1 arg2 harg2 arg3 harg3 x0 x1).1, y ∈ pc.1.set :=
  View.cover_of_tiledL (bodyRun c i arg1 harg1 arg2 harg2 arg3 harg3 x0 x1).1 S512x1.size (by sl_kernel_rfl) y

/-- What the body leaves in the output block's buffer: its pieces read back (over anything). -/
def outBlk (c : Dev nD) (i : grid0.Coords) (arg1 : Memref sig .tc .vmem S512x288 .f32) (harg1 : arg1.IsWhole)
    (arg2 : Memref sig .tc .vmem S32x288 .f32) (harg2 : arg2.IsWhole) (arg3 : Memref sig .tc .vmem S512x32 .f32) (harg3 : arg3.IsWhole)
    (x0 : Vec F S512x288 .f32) (x1 : Vec F S32x288 .f32) : Vec F S512x32 .f32 :=
  VO.read (Elt F) (VO.writes (Elt F) VO.junk (bodyRun c i arg1 harg1 arg2 harg2 arg3 harg3 x0 x1).1)

/-- The output block after point `t`: the body's pieces over that point's two input blocks. -/
def outAt (c : Dev nD) (t : Fin cfg0.N) : Vec F S512x32 .f32 :=
  outBlk c (grid0.coords t) (ms0 t) (hs0 t) (ms1 t) (hs1 t) (ms2 t) (hs2 t) (iblk m c 0 t) (iblk m c 1 t)

/-! ## The pipeline's proof data -/

/-- On core `c`: the arrays as the region finds them; after the body at point `t` each input's buffer at its block
    and the output's at `outAt`; the scoped rest and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

/-- Each input's current staging buffer holds its block when the body starts, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 1600000 in
/-- The body at any point: the inputs' buffers hold their blocks, so the body's run applies; the output's buffer is
    handed over at whatever it held and comes back covered by the 32 columns; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outAt outBlk
  iintro ⟨HΦ, Ho, ⟨%d0, H0⟩, ⟨%d1, H1⟩, ⟨%d2, H2⟩⟩
  iapply ((bodyRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each staged array at what the pipeline wrote back and every other unscoped buffer as the last host operation
    leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, nothing faulting, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Around

end
-- ==== Proof.ColumnValue.lean ====
/-
  One column of the output block, read at a row.

  For filter co the body takes row co of the transposed filter matrix w : [32, 288], repeats it over the 512 patch
  rows, subtracts it from the patch block x : [512, 288], takes absolute values, sums each row over its 288 entries
  (from zero), keeps the result as a 512 x 1 column, and subtracts it from a column of zeros.  At row p that is
  0 - sum over d of |x (p, d) - w (co, d)|.
-/
import proofs.«140434_j1795296330278_2_alg».proof.Proof.Gen.KernelIdeal
import Idealize.ShloMosaic.Lib.ValueIdx
import Idealize.ShloMosaic.Lib.Pipeline.Value
import Idealize.ShloMosaic.PureOps.Ideal.Laws

noncomputable section

open scoped BigOperators

namespace Cert.KernelIdeal.Column

open Cert.KernelIdeal Cert.KernelIdeal.Gen Idealize.ShloMosaic Idealize.ShloMosaic.ValueIdx

/-- The output block as ONE function of the two input blocks: at (p, co) the negated sum over d of
    |x (p, d) - w (co, d)|, written as the body computes it (zero minus the sum). -/
def blockL1 (x : FVec Ideal S512x288 .f32) (w : FVec Ideal S32x288 .f32) : FVec Ideal S512x32 .f32 :=
  fun y => 0 - ∑ d : Fin 288, FloatOps.absf (F := Ideal) (φ := .f32) (x (ix2 (y 0) d) - w (ix2 (y 1) d))

/-- A row sum of a 512 x 288 block kept as a 512 x 1 column, read at (p, 0): the sum of row p's 288 entries. -/
theorem rowSumColumn_apply (v : FVec Ideal S512x288 .f32) (hacc : (0x00000000#32 : BitVec 32) = 0x00000000#32) (p : Fin 512) (q : Fin 1) :
    shapeCast S512x1 (multiReduction .add [1] S512 v 0x00000000#32 reduces_S512x288_S512 (.inl rfl) hacc) shapeCasts_S512_S512x1 (ix2 p q)
      = ∑ d : Fin 288, v (ix2 p d) := by
  refine (shapeCast_apply _ shapeCasts_S512_S512x1 (ix2 p q) (ix1 p) ?_).trans ?_
  · rw [Shape.rowMajor_val_one, Shape.rowMajor_val_two]
    show p.val = p.val * 1 + q.val
    have := q.isLt; omega
  refine (Ideal.multiReduction_add_single v 0x00000000#32 reduces_S512x288_S512 (.inl rfl) hacc (ix1 p)).trans ?_
  refine Finset.sum_congr rfl fun d _ => congrArg v ?_
  exact funext fun a => Fin.ext (by match a with | ⟨0, _⟩ => rfl | ⟨1, _⟩ => rfl)

/-- Row co of the transposed filter matrix repeated over the patch rows, read at (p, d): the filter's entry (co, d). -/
theorem filterRow_apply (co : ℕ) (hco : co < 32) (w : FVec Ideal S32x288 .f32) (hs : S32x288.Slices ![co, 0] S1x288) (p : Fin 512) (d : Fin 288) :
    broadcastTo S512x288 (extractStridedSlice S1x288 ![co, 0] w hs) broadcasts_S1x288_S512x288 (ix2 p d) = w (ix2 (⟨co, hco⟩ : Fin 32) d) := by
  refine (broadcastTo_apply _ broadcasts_S1x288_S512x288 (ix2 p d) (ix2 (0 : Fin 1) d) (fun a => ?_)).trans ?_
  · match a with
    | ⟨0, _⟩ => show 0 = if (1 : Nat) = 1 then 0 else p.val; rw [if_pos rfl]
    | ⟨1, _⟩ => show d.val = if (288 : Nat) = 1 then 0 else d.val; rw [if_neg (by decide)]
  exact extractStridedSlice_apply _ w hs (ix2 (0 : Fin 1) d) (ix2 (⟨co, hco⟩ : Fin 32) d) (fun a => by
    match a with
    | ⟨0, _⟩ => show co = co + 0; omega
    | ⟨1, _⟩ => show d.val = 0 + d.val; omega)

/-- The stored column for filter co at row p: zero minus the sum over d of |x (p, d) - w (co, d)|. -/
theorem column_apply (co : ℕ) (hco : co < 32) (x : FVec Ideal S512x288 .f32) (w : FVec Ideal S32x288 .f32)
    (hs : S32x288.Slices ![co, 0] S1x288) (hacc : (0x00000000#32 : BitVec 32) = 0x00000000#32) (p : Fin 512) (q : Fin 1) :
    subf (broadcast S512x1 (Scalar.ofBits (F := Ideal) .f32 0x00000000#32))
        (shapeCast S512x1 (multiReduction .add [1] S512
          (absf (subf x (broadcastTo S512x288 (extractStridedSlice S1x288 ![co, 0] w hs) broadcasts_S1x288_S512x288)))
          0x00000000#32 reduces_S512x288_S512 (.inl rfl) hacc) shapeCasts_S512_S512x1) (ix2 p q)
      = 0 - ∑ d : Fin 288, FloatOps.absf (F := Ideal) (φ := .f32) (x (ix2 p d) - w (ix2 (⟨co, hco⟩ : Fin 32) d)) := by
  rw [subf_apply, broadcast_apply, rowSumColumn_apply]
  have hz : (Scalar.ofBits (F := Ideal) .f32 0x00000000#32 : Ideal .f32) = 0 := by
    show Ideal.ofBits .f32 0x00000000#32 = 0
    exact Ideal.ofBits_zero_f32
  rw [hz]
  refine congrArg (fun s => (0 : EReal) - s) (Finset.sum_congr rfl fun d _ => ?_)
  show FloatOps.absf (F := Ideal) (FloatOps.subf (x (ix2 p d)) (broadcastTo S512x288 (extractStridedSlice S1x288 ![co, 0] w hs) broadcasts_S1x288_S512x288 (ix2 p d))) = _
  rw [filterRow_apply co hco, Ideal.subf_def]

end Cert.KernelIdeal.Column

end
-- ==== Proof.BlockValue.lean ====
/-
  The output block after the body, as one function of the two input blocks.

  The body's 32 stores are the columns co = 0 … 31 of the 512 x 32 output block; the column for filter co holds, at
  row p, zero minus the sum over d of |x (p, d) - w (co, d)|, x the point's 512 patch rows and w the transposed
  filter matrix.  The body spells the columns' values over values it passes from one printed part to the next, so
  the 32 payloads are not one text; each is unfolded to the same arithmetic and read by the column lemma.  Since
  the columns cover the block, the buffer holds that one function of (p, co) whatever it held before.
-/
import proofs.«140434_j1795296330278_2_alg».proof.Proof.IdealFrame
import proofs.«140434_j1795296330278_2_alg».proof.Proof.ColumnValue

set_option maxRecDepth 16384

noncomputable section

open scoped BigOperators

namespace Cert.KernelIdeal.Around

open Cert.KernelIdeal Cert.KernelIdeal.Gen
open Idealize.ShloMosaic Idealize.ShloMosaic.TcCoe Idealize.ShloMosaic.Tactic Idealize.ShloMosaic.ValueIdx
open Idealize.SL Idealize.SL.Sem

theorem hz2 : (![0, 0] : Fin 2 → Nat) = fun _ => 0 := funext fun a => by fin_cases a <;> rfl

/-- The body's load of the whole patch block reads the block. -/
theorem loadX (arg1 : Memref sig .tc .vmem S512x288 .f32) (harg1 : arg1.IsWhole) (x0 : Vec Ideal S512x288 .f32) :
    View.readAt (Elt Ideal) arg1.view (Rect.unit (s := S512x288) ![0, 0] S512x288.size inb_S512x288_S512x288_0_0).toLoadRect (harg1.unread x0) = x0 := by
  rw [View.readAt_eq_ld, harg1.read_unread, View.ld_unit_zero (S := S512x288) hz2]
/-- The body's load of the whole transposed filter matrix reads the matrix. -/
theorem loadW (arg2 : Memref sig .tc .vmem S32x288 .f32) (harg2 : arg2.IsWhole) (x1 : Vec Ideal S32x288 .f32) :
    View.readAt (Elt Ideal) arg2.view (Rect.unit (s := S32x288) ![0, 0] S32x288.size inb_S32x288_S32x288_0_0).toLoadRect (harg2.unread x1) = x1 := by
  rw [View.readAt_eq_ld, harg2.read_unread, View.ld_unit_zero (S := S32x288) hz2]
/-- A shape cast to the same shape changes nothing (the body casts both loaded blocks so). -/
theorem pay4_eq (v : Vec Ideal S512x288 .f32) : k0_pay4 v = v := shapeCast_self v _
theorem pay5_eq (v : Vec Ideal S32x288 .f32) : k0_pay5 v = v := shapeCast_self v _

/-- Column co of the 512 x 32 block, at its local index (p, 0), is the block's index (p, co). -/
theorem emb_col (co : ℕ) (hco : co < 32) (inb : ∀ a, (![0, co] : Fin 2 → Nat) a + S512x1.size a ≤ S512x32.size a) (p : Fin 512) (q : Fin 1) :
    (Rect.unit (s := S512x32) ![0, co] S512x1.size inb).emb (ix2 p q) = ix2 p (⟨co, hco⟩ : Fin 32) := by
  funext a
  apply Fin.ext
  match a with
  | ⟨0, _⟩ => show 0 + 1 * p.val = p.val; omega
  | ⟨1, _⟩ => show co + 1 * q.val = co; have := q.isLt; omega

/-- One stored piece: if its payload at row p is zero minus the sum over d of |x0 (p, d) - x1 (co, d)|, then at every
    local index of column co it is the block function at the block's index. -/
theorem piece_ok (co : ℕ) (hco : co < 32) (inb : ∀ a, (![0, co] : Fin 2 → Nat) a + S512x1.size a ≤ S512x32.size a)
    (x0 : FVec Ideal S512x288 .f32) (x1 : FVec Ideal S32x288 .f32) (pay : FVec Ideal S512x1 .f32)
    (hpay : ∀ (p : Fin 512) (q : Fin 1), pay (ix2 p q) = 0 - ∑ d : Fin 288, FloatOps.absf (F := Ideal) (φ := .f32) (x0 (ix2 p d) - x1 (ix2 (⟨co, hco⟩ : Fin 32) d))) :
    ∀ x : (Rect.unit (s := S512x32) ![0, co] S512x1.size inb).shape.Idx,
      pay x = Column.blockL1 x0 x1 ((Rect.unit (s := S512x32) ![0, co] S512x1.size inb).emb x) := by
  intro x
  obtain ⟨p, q, rfl⟩ : ∃ (p : Fin 512) (q : Fin 1), x = ix2 p q := ⟨x 0, x 1, eq_ix2 x⟩
  rw [emb_col co hco inb p q]
  exact hpay p q

set_option maxHeartbeats 3200000 in
/-- What the body leaves in the output block's buffer is the block function of the two input blocks: each of the 32
    stored columns is that function on its column, and the columns cover the block. -/
theorem outBlk_eq (c : Dev nD) (i : grid0.Coords) (arg1 : Memref sig .tc .vmem S512x288 .f32) (harg1 : arg1.IsWhole)
    (arg2 : Memref sig .tc .vmem S32x288 .f32) (harg2 : arg2.IsWhole) (arg3 : Memref sig .tc .vmem S512x32 .f32) (harg3 : arg3.IsWhole)
    (x0 : Vec Ideal S512x288 .f32) (x1 : Vec Ideal S32x288 .f32) :
    outBlk (F := Ideal) c i arg1 harg1 arg2 harg2 arg3 harg3 x0 x1 = Column.blockL1 x0 x1 := by
  unfold outBlk
  rw [View.read_writes_junk_eq_canon]
  funext y
  refine View.canon_apply_of_pieces (Column.blockL1 x0 x1) _ ?_ y (cover c i arg1 harg1 arg2 harg2 arg3 harg3 x0 x1 y)
  unfold bodyRun
  dsimp only
  sl_unfold_run_names
  simp only [pay4_eq, pay5_eq]
  simp only [List.forall_mem_cons, List.not_mem_nil, false_imp_iff, implies_true, and_true]
  rw [loadX, loadW]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · refine piece_ok 31 (by decide) _ x0 x1 _ (fun p q => ?_)
    unfold k0_pay3
    dsimp only
    exact Column.column_apply 31 (by decide) x0 x1 _ rfl p q
  · refine piece_ok 30 (by decide) _ x0 x1 _ (fun p q => ?_)
    unfold k0_pay2
    dsimp only
    exact Column.column_apply 30 (by decide) x0 x1 _ rfl p q
  · refine piece_ok 29 (by decide) _ x0 x1 _ (fun p q => ?_)
    unfold k0_pay1 k0_pay40
    dsimp only
    exact Column.column_apply 29 (by decide) x0 x1 _ rfl p q
  · refine piece_ok 28 (by decide) _ x0 x1 _ (fun p q => ?_)
    unfold k0_pay39
    dsimp only
    exact Column.column_apply 28 (by decide) x0 x1 _ rfl p q
  · refine piece_ok 27 (by decide) _ x0 x1 _ (fun p q => ?_)
    unfold k0_pay38
    dsimp only
    exact Column.column_apply 27 (by decide) x0 x1 _ rfl p q
  · refine piece_ok 26 (by decide) _ x0 x1 _ (fun p q => ?_)
    unfold k0_pay37
    dsimp only
    exact Column.column_apply 26 (by decide) x0 x1 _ rfl p q
  · refine piece_ok 25 (by decide) _ x0 x1 _ (fun p q => ?_)
    unfold k0_pay36 k0_pay35
    dsimp only
    exact Column.column_apply 25 (by decide) x0 x1 _ rfl p q
  · refine piece_ok 24 (by decide) _ x0 x1 _ (fun p q => ?_)
    unfold k0_pay34
    dsimp only
    exact Column.column_apply 24 (by decide) x0 x1 _ rfl p q
  · refine piece_ok 23 (by decide) _ x0 x1 _ (fun p q => ?_)
    unfold k0_pay33
    dsimp only
    exact Column.column_apply 23 (by decide) x0 x1 _ rfl p q
  · refine piece_ok 22 (by decide) _ x0 x1 _ (fun p q => ?_)
    unfold k0_pay32
    dsimp only
    exact Column.column_apply 22 (by decide) x0 x1 _ rfl p q
  · refine piece_ok 21 (by decide) _ x0 x1 _ (fun p q => ?_)
    unfold k0_pay31
    dsimp only
    exact Column.column_apply 21 (by decide) x0 x1 _ rfl p q
  · refine piece_ok 20 (by decide) _ x0 x1 _ (fun p q => ?_)
    unfold k0_pay30
    dsimp only
    exact Column.column_apply 20 (by decide) x0 x1 _ rfl p q
  · refine piece_ok 19 (by decide) _ x0 x1 _ (fun p q => ?_)
    unfold k0_pay29
    dsimp only
    exact Column.column_apply 19 (by decide) x0 x1 _ rfl p q
  · refine piece_ok 18 (by decide) _ x0 x1 _ (fun p q => ?_)
    unfold k0_pay28
    dsimp only
    exact Column.column_apply 18 (by decide) x0 x1 _ rfl p q
  · refine piece_ok 17 (by decide) _ x0 x1 _ (fun p q => ?_)
    unfold k0_pay27
    dsimp only
    exact Column.column_apply 17 (by decide) x0 x1 _ rfl p q
  · refine piece_ok 16 (by decide) _ x0 x1 _ (fun p q => ?_)
    unfold k0_pay26 k0_pay25
    dsimp only
    exact Column.column_apply 16 (by decide) x0 x1 _ rfl p q
  · refine piece_ok 15 (by decide) _ x0 x1 _ (fun p q => ?_)
    unfold k0_pay24
    dsimp only
    exact Column.column_apply 15 (by decide) x0 x1 _ rfl p q
  · refine piece_ok 14 (by decide) _ x0 x1 _ (fun p q => ?_)
    unfold k0_pay23
    dsimp only
    exact Column.column_apply 14 (by decide) x0 x1 _ rfl p q
  · refine piece_ok 13 (by decide) _ x0 x1 _ (fun p q => ?_)
    unfold k0_pay22
    dsimp only
    exact Column.column_apply 13 (by decide) x0 x1 _ rfl p q
  · refine piece_ok 12 (by decide) _ x0 x1 _ (fun p q => ?_)
    unfold k0_pay21 k0_pay20
    dsimp only
    exact Column.column_apply 12 (by decide) x0 x1 _ rfl p q
  · refine piece_ok 11 (by decide) _ x0 x1 _ (fun p q => ?_)
    unfold k0_pay19
    dsimp only
    exact Column.column_apply 11 (by decide) x0 x1 _ rfl p q
  · refine piece_ok 10 (by decide) _ x0 x1 _ (fun p q => ?_)
    unfold k0_pay18
    dsimp only
    exact Column.column_apply 10 (by decide) x0 x1 _ rfl p q
  · refine piece_ok 9 (by decide) _ x0 x1 _ (fun p q => ?_)
    unfold k0_pay17
    dsimp only
    exact Column.column_apply 9 (by decide) x0 x1 _ rfl p q
  · refine piece_ok 8 (by decide) _ x0 x1 _ (fun p q => ?_)
    unfold k0_pay16
    dsimp only
    exact Column.column_apply 8 (by decide) x0 x1 _ rfl p q
  · refine piece_ok 7 (by decide) _ x0 x1 _ (fun p q => ?_)
    unfold k0_pay15
    dsimp only
    exact Column.column_apply 7 (by decide) x0 x1 _ rfl p q
  · refine piece_ok 6 (by decide) _ x0 x1 _ (fun p q => ?_)
    unfold k0_pay14
    dsimp only
    exact Column.column_apply 6 (by decide) x0 x1 _ rfl p q
  · refine piece_ok 5 (by decide) _ x0 x1 _ (fun p q => ?_)
    unfold k0_pay13
    dsimp only
    exact Column.column_apply 5 (by decide) x0 x1 _ rfl p q
  · refine piece_ok 4 (by decide) _ x0 x1 _ (fun p q => ?_)
    unfold k0_pay12
    dsimp only
    exact Column.column_apply 4 (by decide) x0 x1 _ rfl p q
  · refine piece_ok 3 (by decide) _ x0 x1 _ (fun p q => ?_)
    unfold k0_pay11 k0_pay9 k0_pay10
    rw [pay4_eq, pay5_eq]
    dsimp only
    exact Column.column_apply 3 (by decide) x0 x1 _ rfl p q
  · refine piece_ok 2 (by decide) _ x0 x1 _ (fun p q => ?_)
    unfold k0_pay8
    rw [pay4_eq, pay5_eq]
    dsimp only
    exact Column.column_apply 2 (by decide) x0 x1 _ rfl p q
  · refine piece_ok 1 (by decide) _ x0 x1 _ (fun p q => ?_)
    unfold k0_pay7
    rw [pay4_eq, pay5_eq]
    dsimp only
    exact Column.column_apply 1 (by decide) x0 x1 _ rfl p q
  · refine piece_ok 0 (by decide) _ x0 x1 _ (fun p q => ?_)
    unfold k0_pay6
    rw [pay4_eq, pay5_eq]
    dsimp only
    exact Column.column_apply 0 (by decide) x0 x1 _ rfl p q

end Cert.KernelIdeal.Around

end
-- ==== Proof.Spec.lean ====
/-
  The common specification of the two programs at the extended reals.

  Both programs first lay the input image out as patches: pad the two spatial axes of x : [4, 64, 64, 32] by one
  zero on each side, take the nine 64 x 64 windows at offsets (dy, dx) in {0, 1, 2}^2, stack them on a new axis
  and flatten, so that row m = (n, h, w) of the patch matrix holds, at column d = (dy, dx, c), the padded image
  at (n, h + dy, w + dx, c).  That layout is the same text in both programs; here it is ONE function, `im2col`,
  which neither side of the proof ever opens.

  On the patch matrix X : [16384, 288] and the filter matrix W : [288, 32] both programs compute the negative
  L1 distance of every patch to every filter: at (m, co) the value  - sum over d of |X (m, d) - W (d, co)|.
-/
import proofs.«140434_j1795296330278_2_alg».proof.Proof.Gen.ReferenceIdeal
import Idealize.ShloMosaic.PureOps.Ideal
import Idealize.ShloMosaic.Lib.ValueIdx

noncomputable section

open scoped BigOperators

namespace Cert.Spec

open Idealize.ShloMosaic Idealize.ShloMosaic.ValueIdx
open Cert.ReferenceIdeal Cert.ReferenceIdeal.Gen

/-- The patch matrix of an image: zero padding by one on both spatial axes, the nine shifted 64 x 64 windows
    stacked on a new axis before the channels, and the whole flattened to [4·64·64, 9·32]. -/
def im2col (x : FVec Ideal S4x64x64x32 .f32) : FVec Ideal S16384x288 .f32 :=
  shapeCast _ (concatenate S4x64x64x9x32 3 [⟨S4x64x64x1x32, (broadcastInDim S4x64x64x1x32 ![0, 1, 2, 4] bcast_S4x64x64x32_S4x64x64x1x32_0_1_2_4 (extractStridedSlice S4x64x64x32 ![0, 0, 0, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_0_0_0))⟩, ⟨S4x64x64x1x32, (broadcastInDim S4x64x64x1x32 ![0, 1, 2, 4] bcast_S4x64x64x32_S4x64x64x1x32_0_1_2_4 (extractStridedSlice S4x64x64x32 ![0, 0, 1, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_0_1_0))⟩, ⟨S4x64x64x1x32, (broadcastInDim S4x64x64x1x32 ![0, 1, 2, 4] bcast_S4x64x64x32_S4x64x64x1x32_0_1_2_4 (extractStridedSlice S4x64x64x32 ![0, 0, 2, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_0_2_0))⟩, ⟨S4x64x64x1x32, (broadcastInDim S4x64x64x1x32 ![0, 1, 2, 4] bcast_S4x64x64x32_S4x64x64x1x32_0_1_2_4 (extractStridedSlice S4x64x64x32 ![0, 1, 0, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_1_0_0))⟩, ⟨S4x64x64x1x32, (broadcastInDim S4x64x64x1x32 ![0, 1, 2, 4] bcast_S4x64x64x32_S4x64x64x1x32_0_1_2_4 (extractStridedSlice S4x64x64x32 ![0, 1, 1, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_1_1_0))⟩, ⟨S4x64x64x1x32, (broadcastInDim S4x64x64x1x32 ![0, 1, 2, 4] bcast_S4x64x64x32_S4x64x64x1x32_0_1_2_4 (extractStridedSlice S4x64x64x32 ![0, 1, 2, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_1_2_0))⟩, ⟨S4x64x64x1x32, (broadcastInDim S4x64x64x1x32 ![0, 1, 2, 4] bcast_S4x64x64x32_S4x64x64x1x32_0_1_2_4 (extractStridedSlice S4x64x64x32 ![0, 2, 0, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_2_0_0))⟩, ⟨S4x64x64x1x32, (broadcastInDim S4x64x64x1x32 ![0, 1, 2, 4] bcast_S4x64x64x32_S4x64x64x1x32_0_1_2_4 (extractStridedSlice S4x64x64x32 ![0, 2, 1, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_2_1_0))⟩, ⟨S4x64x64x1x32, (broadcastInDim S4x64x64x1x32 ![0, 1, 2, 4] bcast_S4x64x64x32_S4x64x64x1x32_0_1_2_4 (extractStridedSlice S4x64x64x32 ![0, 2, 2, 0] (pad S4x66x66x32 ![0, 1, 1, 0] ![0, 1, 1, 0] ![0, 0, 0, 0] x (sitofp .f32 (constantI S_ 32 0#32)) pads_S4x64x64x32_S4x66x66x32_000_110_110_000 h_S_) slices_S4x66x66x32_S4x64x64x32_0_2_2_0))⟩] concatenates_S4x64x64x1x32_S4x64x64x1x32_S4x64x64x1x32_S4x64x64x1x32_S4x64x64x1x32_S4x64x64x1x32_S4x64x64x1x32_S4x64x64x1x32_S4x64x64x1x32_S4x64x64x9x32_d3) shapeCasts_S4x64x64x9x32_S16384x288

/-- The negative L1 distance of every patch (row of X) to every filter (column of W), as extended reals:
    at (m, co) the value `- ∑ d, |X (m, d) - W (d, co)|`. -/
def negL1 (X : FVec Ideal S16384x288 .f32) (W : FVec Ideal S288x32 .f32) : FVec Ideal S16384x32 .f32 :=
  fun i => -(∑ d : Fin 288, FloatOps.absf (F := Ideal) (φ := .f32) (X (ix2 (i 0) d) - W (ix2 d (i 1))))

/-- The filter bank [3, 3, 32, 32] flattened to the filter matrix [288, 32] (rows d = (dy, dx, c)). -/
def filt (w : FVec Ideal S3x3x32x32 .f32) : FVec Ideal S288x32 .f32 :=
  shapeCast _ w shapeCasts_S3x3x32x32_S288x32

/-- The whole result: the distances, laid back out over the image's positions. -/
def result (x : FVec Ideal S4x64x64x32 .f32) (w : FVec Ideal S3x3x32x32 .f32) : FVec Ideal S4x64x64x32 .f32 :=
  shapeCast _ (negL1 (im2col x) (filt w)) shapeCasts_S16384x32_S4x64x64x32

end Cert.Spec

end
-- ==== Proof.KernelValue.lean ====
/-
  The kernel's result as the specification's function of the two argument arrays.

  Grid point t stages patch rows 512·t … 512·t + 511, the whole transposed filter matrix, and writes back result
  rows 512·t …: what it writes is the block function of those two blocks, which is rows 512·t … of ONE function of
  the whole patch matrix X and the whole transposed filter matrix Wt, (m, co) ↦ 0 - ∑ d, |X (m, d) - Wt (co, d)|.
  The 32 row blocks cover the result array, so after the run it holds that function.  The patch matrix the region
  finds is the specification's `im2col` of the image and the transposed filter matrix the transpose of its `filt`
  (the host operations before the region, composed); zero minus a sum is its negation and Wt (co, d) = W (d, co),
  so the array is the specification's negative L1 distance; the host operation after the region lays it out over
  the image's positions.
-/
import proofs.«140434_j1795296330278_2_alg».proof.Proof.BlockValue
import proofs.«140434_j1795296330278_2_alg».proof.Proof.Spec

set_option maxRecDepth 16384

noncomputable section

open scoped BigOperators

namespace Cert.KernelIdeal.Around

open Cert.KernelIdeal Cert.KernelIdeal.Gen
open Idealize.ShloMosaic Idealize.ShloMosaic.TcCoe Idealize.ShloMosaic.Tactic Idealize.ShloMosaic.ValueIdx
open Idealize.ShloMosaic.StableHlo
open Idealize.SL Idealize.SL.Sem
open Idealize.ShloMosaic.Pipeline (Dat)

variable (m : (ℓ : Loc nD τ sig) → Buf (Elt Ideal) ℓ) (ρ : Dev nD → PrngReg)

/-! ## The result array as one function of the two staged arrays -/

/-- At (m, co): zero minus the sum over d of |X (m, d) - Wt (co, d)|. -/
def arrL1 (X : FVec Ideal S16384x288 .f32) (Wt : FVec Ideal S32x288 .f32) : FVec Ideal S16384x32 .f32 :=
  fun i => 0 - ∑ d : Fin 288, FloatOps.absf (F := Ideal) (φ := .f32) (X (ix2 (i 0) d) - Wt (ix2 (i 1) d))

/-- The index maps over the grid: the patch rows' block index is the result rows' (both t), every other block index
    is 0. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 31 :=
  (by decide +kernel : ∀ t : Fin grid0.N, _)

/-- Every row block of the result is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

set_option maxHeartbeats 1600000 in
/-- What point t writes back is rows 512·t … of `arrL1` of the two staged arrays as the region finds them. -/
theorem flushed_eq (c : Dev nD) (t : Fin cfg0.N) :
    (dats m 0 c).flushed 2 t = ((cfg0.win 2).blk t).view.read (Elt Ideal) (arrL1 (V m c main_v20) (V m c main_v22)) := by
  show (cfg0.win 2).cut (grid0.coords t) ((dats m 0 c).after 2 t) = _
  rw [after0_2]
  unfold outAt
  rw [outBlk_eq]
  obtain ⟨e0, e1, e2, e3, e4, e5⟩ := idx_facts t
  funext j
  show (0 : EReal) - ∑ d : Fin 288, FloatOps.absf (F := Ideal) (φ := .f32)
        (FloatOps.subf (F := Ideal) (φ := .f32) (V m c main_v20 (((cfg0.win 0).blk t).view.emb (ix2 (j 0) d)))
          (V m c main_v22 (((cfg0.win 1).blk t).view.emb (ix2 (j 1) d))))
     = 0 - ∑ d : Fin 288, FloatOps.absf (F := Ideal) (φ := .f32)
        (FloatOps.subf (F := Ideal) (φ := .f32) (V m c main_v20 (ix2 ((((cfg0.win 2).blk t).view.emb j) 0) d))
          (V m c main_v22 (ix2 ((((cfg0.win 2).blk t).view.emb j) 1) d)))
  refine congrArg (fun s => (0 : EReal) - s) (Finset.sum_congr rfl fun d _ => ?_)
  have h0 : ((cfg0.win 0).blk t).view.emb (ix2 (j 0) d) = ix2 ((((cfg0.win 2).blk t).view.emb j) 0) d := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 288 + 1 * d.val = d.val; omega
  have h1 : ((cfg0.win 1).blk t).view.emb (ix2 (j 1) d) = ix2 ((((cfg0.win 2).blk t).view.emb j) 1) d := by
    funext a; apply Fin.ext
    match a with
    | ⟨0, _⟩ => show win0_1.index t (0 : Fin 2) * 32 + 1 * (j 1).val = win0_2.index t (1 : Fin 2) * 32 + 1 * (j 1).val; omega
    | ⟨1, _⟩ => show win0_1.index t (1 : Fin 2) * 288 + 1 * d.val = d.val; omega
  rw [h0, h1]
  rfl

/-- An index of the result array is in point t's block iff its row is one of the block's 512 (and its column any). -/
theorem mem_blk (t : Fin cfg0.N) (i : S16384x32.Idx) :
    i ∈ ((cfg0.win 2).blk t).view.set ↔ ∀ a : Fin 2, win0_2.index t a * S512x32.size a ≤ (i a).val ∧ (i a).val < win0_2.index t a * S512x32.size a + S512x32.size a := by
  show i ∈ ((View.whole main_v23).slice (win0_2.rect t)).set ↔ _
  rw [View.set_slice_whole, Rect.mem_set_unit]
  exact Iff.rfl

/-- Every index of the result array is in the block of the point its row falls in (row / 512). -/
theorem rows_cover (i : S16384x32.Idx) : ∃ t : Fin cfg0.N, (cfg0.win 2).flush t = true ∧ i ∈ ((cfg0.win 2).blk t).view.set := by
  have hi0 : (i 0).val < 16384 := (i 0).isLt
  have hi1 : (i 1).val < 32 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 32 ≤ (i 1).val ∧ (i 1).val < win0_2.index t (1 : Fin 2) * 32 + 32; omega

/-- The result array after the run. -/
theorem final (c : Dev nD) : (dats m 0 c).arrAt 2 cfg0.N = arrL1 (V m c main_v20) (V m c main_v22) :=
  (dats m 0 c).arrAt_eq_of_cover 2 _ (fun t _ => flushed_eq m c t) rows_cover

/-! ## The two staged arrays, from the arguments -/

/-- The patch matrix the region finds is the specification's `im2col` of the image. -/
theorem V_patches (c : Dev nD) :
    (V m c main_v20 : S16384x288.Idx → EReal) = Cert.Spec.im2col (m ((c : Thread nD τ).loc main_arg0)) := by
  dsimp only [V, V0]
  simp only [hostOps0, hostOps0_1, hostOps0_2, List.flatten_cons, List.flatten_nil, List.append_nil, List.cons_append, List.nil_append]
  after_results_simp
  rfl

/-- The transposed filter matrix the region finds is the transpose of the specification's filter matrix. -/
theorem V_filters (c : Dev nD) :
    (V m c main_v22 : S32x288.Idx → EReal)
      = transpose S32x288 [1, 0] (Cert.Spec.filt (m ((c : Thread nD τ).loc main_arg1))) transposes_S288x32_S32x288_1_0 := by
  dsimp only [V, V0]
  simp only [hostOps0, hostOps0_1, hostOps0_2, List.flatten_cons, List.flatten_nil, List.append_nil, List.cons_append, List.nil_append]
  after_results_simp
  rfl

/-- Against the transposed filter matrix the array function is the negative L1 distance: Wt (co, d) = W (d, co), and
    zero minus a sum is its negation. -/
theorem arrL1_transpose (X : FVec Ideal S16384x288 .f32) (W : FVec Ideal S288x32 .f32) :
    arrL1 X (transpose S32x288 [1, 0] W transposes_S288x32_S32x288_1_0) = Cert.Spec.negL1 X W := by
  funext i
  unfold arrL1 Cert.Spec.negL1
  rw [zero_sub]
  refine congrArg (- ·) (Finset.sum_congr rfl fun d _ => ?_)
  rw [transpose_apply [1, 0] W transposes_S288x32_S32x288_1_0 (ix2 (i 1) d) (ix2 d (i 1))
    (fun b => match b with | ⟨0, _⟩ => rfl | ⟨1, _⟩ => rfl)]

/-! ## The result -/

/-- The final result: the last host operation lays the result array out over the image's positions. -/
theorem result_at (c : Dev nD) :
    Pipeline.afterTail₀ cfgs (dats m) 0 (V0 m) [hostOps1] c main_v24
      = Cert.Spec.result (m ((c : Thread nD τ).loc main_arg0)) (m ((c : Thread nD τ).loc main_arg1)) := by
  unfold Pipeline.afterTail₀
  show StableHlo.after hostOps1 _ (Proc.devRef .tc main_v24) = _
  after_results
  rw [Pipeline.withArrays_arr spec0 launch0.win.arr_inj c _ _ 2, final, V_patches, V_filters, arrL1_transpose]
  rfl

/-- The kernel's run: every weakly fair execution ends with the result at the specification's `result` of the two
    argument arrays, and the arguments as launched. -/
theorem run_value : θ_run defs (onTc (τ := τ) (main (F := Ideal))) ⟨m, fun _ => 0, ρ⟩ fun r => ∀ c : Dev nD,
      r.2.mem ((c.tc : Thread nD τ).loc main_v24) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v24 (Pipeline.mem_restRefs_of main_v24 (by decide) (by decide))).trans (result_at m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Around

end
-- ==== Proof.RefValue.lean ====
/-
  The reference program's result is the common specification's `result` of the two argument arrays.

  The reference computes, on the patch matrix X : [16384, 288] and the filter matrix W : [288, 32], the array
  D (m, d, co) = X (m, d) - W (d, co) (X repeated along a new last axis, W along a new first axis), takes absolute
  values, sums over the middle axis d from the initial value 0, and negates.  Read at (m, co) that is
  - (0 + sum over d of |X (m, d) - W (d, co)|), which is the specification's negative L1 distance once the zero is
  dropped.  The patch layout and the filter flattening are the same text on both sides and are never opened.
-/
import proofs.«140434_j1795296330278_2_alg».proof.Proof.Gen.ReferenceIdeal.Read
import proofs.«140434_j1795296330278_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The patch matrix repeated along a new last axis, read at (m, d, co): it depends on the row m and the column d
    only. -/
theorem bcastX_apply (X : FVec Ideal S16384x288 .f32) (j : S16384x288x32.Idx) :
    broadcastInDim S16384x288x32 ![0, 1, 2] bcast_S16384x288x1_S16384x288x32_0_1_2
        (broadcastInDim S16384x288x1 ![0, 1] bcast_S16384x288_S16384x288x1_0_1 X) j
      = X (ix2 (j 0) (j 1)) := by
  rw [broadcastInDim_apply _ bcast_S16384x288x1_S16384x288x32_0_1_2 _ j (ix3 (j 0) (j 1) (0 : Fin 1))
    (fun a => match a with
      | ⟨0, _⟩ => by show (j 0).val = if (16384 : Nat) = 1 then 0 else (j 0).val; rw [if_neg (by decide)]
      | ⟨1, _⟩ => by show (j 1).val = if (288 : Nat) = 1 then 0 else (j 1).val; rw [if_neg (by decide)]
      | ⟨2, _⟩ => by show 0 = if (1 : Nat) = 1 then 0 else (j 2).val; rw [if_pos rfl])]
  exact broadcastInDim_apply _ bcast_S16384x288_S16384x288x1_0_1 X _ (ix2 (j 0) (j 1))
    (fun a => match a with
      | ⟨0, _⟩ => by show (j 0).val = if (16384 : Nat) = 1 then 0 else (j 0).val; rw [if_neg (by decide)]
      | ⟨1, _⟩ => by show (j 1).val = if (288 : Nat) = 1 then 0 else (j 1).val; rw [if_neg (by decide)])

/-- The filter matrix repeated along a new first axis, read at (m, d, co): it depends on the row d and the column co
    only. -/
theorem bcastW_apply (W : FVec Ideal S288x32 .f32) (j : S16384x288x32.Idx) :
    broadcastInDim S16384x288x32 ![0, 1, 2] bcast_S1x288x32_S16384x288x32_0_1_2
        (broadcastInDim S1x288x32 ![1, 2] bcast_S288x32_S1x288x32_1_2 W) j
      = W (ix2 (j 1) (j 2)) := by
  rw [broadcastInDim_apply _ bcast_S1x288x32_S16384x288x32_0_1_2 _ j (ix3 (0 : Fin 1) (j 1) (j 2))
    (fun a => match a with
      | ⟨0, _⟩ => by show 0 = if (1 : Nat) = 1 then 0 else (j 0).val; rw [if_pos rfl]
      | ⟨1, _⟩ => by show (j 1).val = if (288 : Nat) = 1 then 0 else (j 1).val; rw [if_neg (by decide)]
      | ⟨2, _⟩ => by show (j 2).val = if (32 : Nat) = 1 then 0 else (j 2).val; rw [if_neg (by decide)])]
  exact broadcastInDim_apply _ bcast_S288x32_S1x288x32_1_2 W _ (ix2 (j 1) (j 2))
    (fun a => match a with
      | ⟨0, _⟩ => by show (j 1).val = if (288 : Nat) = 1 then 0 else (j 1).val; rw [if_neg (by decide)]
      | ⟨1, _⟩ => by show (j 2).val = if (32 : Nat) = 1 then 0 else (j 2).val; rw [if_neg (by decide)])

/-- On a patch matrix X and a filter matrix W the reference's arithmetic is the negative L1 distance: at (m, co) the
    sum over the middle axis runs over the entries |X (m, d) - W (d, co)|, and its initial value is zero. -/
theorem negL1_eq (X : FVec Ideal S16384x288 .f32) (W : FVec Ideal S288x32 .f32) :
    Host.negf (F := Ideal) (Host.reduceAdd (Host.absf (subf
        (broadcastInDim S16384x288x32 ![0, 1, 2] bcast_S16384x288x1_S16384x288x32_0_1_2
          (broadcastInDim S16384x288x1 ![0, 1] bcast_S16384x288_S16384x288x1_0_1 X))
        (broadcastInDim S16384x288x32 ![0, 1, 2] bcast_S1x288x32_S16384x288x32_0_1_2
          (broadcastInDim S1x288x32 ![1, 2] bcast_S288x32_S1x288x32_1_2 W))))
      (constant S_ .f32 0x00000000#32) reducesTo_S16384x288x32_S16384x32_d1 h_S_)
      = Cert.Spec.negL1 X W := by
  funext i
  unfold Cert.Spec.negL1
  have hR : S16384x288x32.Reduces [1] S16384x32 := by decide
  simp only [Host.negf, Host.reduceAdd, Ideal.hostReduceAdd_def, Ideal.hostNegf_def, Ideal.negf_def]
  rw [Ideal.hostReduceAdd_single reducesTo_S16384x288x32_S16384x32_d1 hR]
  -- the sum starts from the literal zero
  have h0 : (constant S_ .f32 0x00000000#32 : FVec Ideal S_ .f32) (Shape.Idx.first h_S_) = 0 := by
    show FloatOps.ofBits (F := Ideal) .f32 0x00000000#32 = 0
    rw [Ideal.ofBits_def, Ideal.ofBits_zero_f32]
  rw [h0, zero_add]
  refine congrArg (- ·) (Finset.sum_congr rfl fun k _ => ?_)
  -- the index (m, co) with d inserted on the middle axis is (m, d, co)
  have hl : hR.lift i k = ix3 (i 0) k (i 1) :=
    funext fun a => Fin.ext (by match a with | ⟨0, _⟩ => rfl | ⟨1, _⟩ => rfl | ⟨2, _⟩ => rfl)
  rw [hl]
  -- pointwise: the absolute value of the difference of the two repeated arrays at (m, d, co)
  show FloatOps.hostAbsf (FloatOps.subf
      (broadcastInDim S16384x288x32 ![0, 1, 2] bcast_S16384x288x1_S16384x288x32_0_1_2
        (broadcastInDim S16384x288x1 ![0, 1] bcast_S16384x288_S16384x288x1_0_1 X) (ix3 (i 0) k (i 1)))
      (broadcastInDim S16384x288x32 ![0, 1, 2] bcast_S1x288x32_S16384x288x32_0_1_2
        (broadcastInDim S1x288x32 ![1, 2] bcast_S288x32_S1x288x32_1_2 W) (ix3 (i 0) k (i 1)))) = _
  rw [bcastX_apply, bcastW_apply, Ideal.hostAbsf_def, Ideal.subf_def]

/-- The reference run's result is the specification's `result` of the image and the filter bank: its patch matrix
    and its filter matrix are the specification's `im2col` and `filt` as written, the arithmetic between them is the
    negative L1 distance (`negL1_eq`), and the final relayout over the image's positions is the same on both sides. -/
theorem result_eq (m : (ℓ : Loc nD τ sig) → Buf (Elt Ideal) ℓ) (c : Dev nD) :
    Cert.ReferenceIdeal.Value.res_main_v30 (F := Ideal) m c
      = Cert.Spec.result (m ((c.tc : Thread nD τ).loc main_arg0)) (m ((c.tc : Thread nD τ).loc main_arg1)) := by
  unfold Cert.ReferenceIdeal.Value.res_main_v30 Cert.Spec.result
  exact congrArg (fun v => shapeCast S4x64x64x32 v shapeCasts_S16384x32_S4x64x64x32)
    (negL1_eq (Cert.Spec.im2col (m ((c.tc : Thread nD τ).loc main_arg0)))
      (Cert.Spec.filt (m ((c.tc : Thread nD τ).loc main_arg1))))

end Cert.ReferenceIdeal.RefValue

end
-- ==== Proof.lean ====
/-
  The certificate of an "adder" convolution kernel against its jnp reference.

  Both programs take an image x : [4, 64, 64, 32] and a filter bank [3, 3, 32, 32], lay the zero-padded image out
  as the patch matrix X : [16384, 288] (row m = (n, h, w), column d = (dy, dx, c)), flatten the filter bank to
  W : [288, 32], and return, laid back out over the image's positions, the negative L1 distance of every patch to
  every filter:  out (m, co) = - sum over d of |X (m, d) - W (d, co)|.

  The reference computes it on the host as one broadcast difference [16384, 288, 32], absolute value, sum over the
  middle axis, negation.  The kernel transposes W, and for each block of 512 patch rows and each filter co computes
  0 - (sum over d of |X (m, d) - W^T (co, d)|) as one 512 x 1 column of a 512 x 32 output block.  On the extended
  reals the two are the same function: W^T (co, d) = W (d, co), zero minus a sum is its negation, and the 32 row
  blocks, each of 32 columns, cover the result.  No law of the extended reals that fails at the infinities is used,
  so the precondition (finite inputs) is never opened.

  The kernel was printed with no rewrite of the idealization pass, so `preserves` has nothing to state.  The three
  frames: each program runs to the end, nothing faulting, with its two argument arrays unchanged — for the two
  printings of the kernel from the pipeline's run around the region, for the reference from its host run.
-/
import proofs.«140434_j1795296330278_2_alg».proof.Defs
import proofs.«140434_j1795296330278_2_alg».proof.Proof.Gen.Kernel
import proofs.«140434_j1795296330278_2_alg».proof.Proof.Gen.KernelIdeal
import proofs.«140434_j1795296330278_2_alg».proof.Proof.Gen.ReferenceIdeal
import proofs.«140434_j1795296330278_2_alg».proof.Proof.Gen.Pre_finite_inputs
import proofs.«140434_j1795296330278_2_alg».proof.Proof.WordFrame
import proofs.«140434_j1795296330278_2_alg».proof.Proof.KernelValue
import proofs.«140434_j1795296330278_2_alg».proof.Proof.RefValue

noncomputable section

namespace Cert.Proof

open Idealize.ShloMosaic Idealize.ShloMosaic.TcCoe Idealize.SL.Sem

/-- The kernel as printed runs to the end and leaves its arguments unchanged. -/
theorem frame_kernel : Cert.frame_Kernel := fun m ρ _ => Cert.Kernel.Around.frame m ρ

/-- So does the kernel read at the extended reals. -/
theorem frame_kernelIdeal : Cert.frame_KernelIdeal := fun m ρ _ => Cert.KernelIdeal.Around.frame m ρ

/-- So does the reference: its host run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization pass rewrote nothing. -/
theorem preserves : Cert.preserves_Kernel_KernelIdeal := trivial

/-- From memories agreeing on the image and the filter bank both programs end with the same result: the
    specification's negative L1 distances of the image's patches to the filters, laid out over the image. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Around.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
